-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "c_101_800" .f32 0x3E0147AE#32 ((101 / 800 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1024 : Shape := ⟨1, ![1024]⟩
abbrev S100000x64 : Shape := ⟨2, ![100000, 64]⟩
abbrev S100000 : Shape := ⟨1, ![100000]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x64 .f32) (main_arg1 : IVec S1024 32) (main_arg2 : FVec F S100000x64 .f32) (main_arg3 : FVec F S100000 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x64 : Shape := ⟨2, ![1024, 64]⟩
abbrev S1024 : Shape := ⟨1, ![1024]⟩
abbrev S100000x64 : Shape := ⟨2, ![100000, 64]⟩
abbrev S100000 : Shape := ⟨1, ![100000]⟩
abbrev S64x100000 : Shape := ⟨2, ![64, 100000]⟩
abbrev S1x100000 : Shape := ⟨2, ![1, 100000]⟩
abbrev S1024x100000 : Shape := ⟨2, ![1024, 100000]⟩
abbrev S32x64 : Shape := ⟨2, ![32, 64]⟩
abbrev S32x100000 : Shape := ⟨2, ![32, 100000]⟩
abbrev S32 : Shape := ⟨1, ![32]⟩
abbrev S32x1 : Shape := ⟨2, ![32, 1]⟩

abbrev nBuf : Space → Nat
  | .hbm => 9
  | .vmem => 6
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S100000, .f32⟩
  | .hbm, ⟨4, _⟩ => ⟨S1024x64, .bf16⟩
  | .hbm, ⟨5, _⟩ => ⟨S64x100000, .f32⟩
  | .hbm, ⟨6, _⟩ => ⟨S64x100000, .bf16⟩
  | .hbm, ⟨7, _⟩ => ⟨S1x100000, .f32⟩
  | .hbm, ⟨8, _⟩ => ⟨S1024x100000, .f32⟩
  | .local _ .vmem, ⟨0, _⟩ => ⟨S32x64, .bf16⟩
  | .local _ .vmem, ⟨1, _⟩ => ⟨S32x64, .bf16⟩
  | .local _ .vmem, ⟨2, _⟩ => ⟨S64x100000, .bf16⟩
  | .local _ .vmem, ⟨3, _⟩ => ⟨S1x100000, .f32⟩
  | .local _ .vmem, ⟨4, _⟩ => ⟨S32x100000, .f32⟩
  | .local _ .vmem, ⟨5, _⟩ => ⟨S32x100000, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S100000x64_S64x100000_1_0 : S100000x64.Transposes [1, 0] S64x100000
  shapeCasts_S100000_S1x100000 : S100000.ShapeCasts S1x100000
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64x100000_S64x100000_0_0 : ∀ a, (![0, 0] : Fin 2 → Nat) a + S64x100000.size a ≤ S64x100000.size a
  h_S64x100000 : 0 < S64x100000.numel
  shapeCasts_S64x100000_S64x100000 : S64x100000.ShapeCasts S64x100000
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  broadcasts_S1x100000_S32x100000 : S1x100000.Broadcasts S32x100000
  inb_S32x100000_S32x100000_0_0 : ∀ a, (![0, 0] : Fin 2 → Nat) a + S32x100000.size a ≤ S32x100000.size a
  h_S32x100000 : 0 < S32x100000.numel
  reduces_S32x64_S32 : S32x64.Reduces [1] S32
  shapeCasts_S32_S32x1 : S32.ShapeCasts S32x1
  shapeCasts_S32x100000_S32x100000 : S32x100000.ShapeCasts S32x100000
  broadcasts_S32x1_S32x100000 : S32x1.Broadcasts S32x100000
  reduces_S32x100000_S32 : S32x100000.Reduces [1] S32
  dot_S32x64_S64x100000_S32x100000_1_0_0_1_n_n_wf : DotDims.WF S32x64 S64x100000 S32x100000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64.size a ≤ S1024x64.size a
  hwx0_0 : ∀ i : grid0.Coords, EltTy.bits .bf16 = 32 ∨ (Rect.block (s := S1024x64) S32x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100000.size a ≤ S64x100000.size a
  hwx0_1 : ∀ i : grid0.Coords, EltTy.bits .bf16 = 32 ∨ (Rect.block (s := S64x100000) S64x100000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100000.size a ≤ S1x100000.size a
  hwx0_2 : ∀ i : grid0.Coords, EltTy.bits .f32 = 32 ∨ (Rect.block (s := S1x100000) S1x100000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x100000.size a ≤ S1024x100000.size a
  hwx0_3 : ∀ i : grid0.Coords, EltTy.bits .f32 = 32 ∨ (Rect.block (s := S1024x100000) S32x100000.size (cc0_transform_3 i) (hinb0_3 i)).WholeWords (EltTy.packing .f32)

variable [Facts₀]

def dot_S32x64_S64x100000_S32x100000_1_0_0_1_n_n : DotDims S32x64 S64x100000 S32x100000 where
  lhsContracting := [1]
  rhsContracting := [0]
  lhsNonContracting := [0]
  rhsNonContracting := [1]
  lhsBatch := []
  rhsBatch := []
  wf := dot_S32x64_S64x100000_S32x100000_1_0_0_1_n_n_wf

abbrev win0_0 : Pipeline.Window sig grid0 :=
  Pipeline.Window.ofSpec (Memref.whole main_v0) S32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x100000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x100000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x100000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64 : Shape := ⟨2, ![1024, 64]⟩
abbrev S1024 : Shape := ⟨1, ![1024]⟩
abbrev S100000x64 : Shape := ⟨2, ![100000, 64]⟩
abbrev S100000 : Shape := ⟨1, ![100000]⟩
abbrev S64x100000 : Shape := ⟨2, ![64, 100000]⟩
abbrev S1024x100000 : Shape := ⟨2, ![1024, 100000]⟩
abbrev S1x100000 : Shape := ⟨2, ![1, 100000]⟩
abbrev S_ : Shape := ⟨0, ![]⟩
abbrev S1024x1 : Shape := ⟨2, ![1024, 1]⟩

abbrev nBuf : Space → Nat
  | .hbm => 24
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S100000, .f32⟩
  | .hbm, ⟨4, _⟩ => ⟨S64x100000, .f32⟩
  | .hbm, ⟨5, _⟩ => ⟨S1024x100000, .f32⟩
  | .hbm, ⟨6, _⟩ => ⟨S1x100000, .f32⟩
  | .hbm, ⟨7, _⟩ => ⟨S1024x100000, .f32⟩
  | .hbm, ⟨8, _⟩ => ⟨S1024x100000, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S_, .f32⟩
  | .hbm, ⟨19, _⟩ => ⟨S1024, .f32⟩
  | .hbm, ⟨20, _⟩ => ⟨S1024x1, .f32⟩
  | .hbm, ⟨21, _⟩ => ⟨S1024x1, .f32⟩
  | .hbm, ⟨22, _⟩ => ⟨S1024x100000, .f32⟩
  | .hbm, ⟨23, _⟩ => ⟨S1024x100000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩

abbrev nD : Nat := 1
abbrev τ : Topo := Topo.v7x

variable {F : FTy → Type} [FloatOps F]

class Facts₀ : Prop where
  transposes_S100000x64_S64x100000_1_0 : S100000x64.Transposes [1, 0] S64x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  dot_S1024x64_S64x100000_S1024x100000_1_0_0_1_n_n_wf : DotDims.WF S1024x64 S64x100000 S1024x100000 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.LibStretch.lean ====
/-
  Three small tools for reading what a line of array operations leaves in a buffer (`StableHlo.after ops V b`), general in
  the program's signature and in the float values.

  * `after_append`: what two lists of operations run one after the other leave is what the second leaves of what the first
    left. It lets a long line be read in consecutive parts, each over an ARBITRARY valuation `V` — which matters: a part's
    lemma stated over a valuation that is itself an earlier fold lets a definitional check open that fold and evaluate it.
  * `ofBuf_toBuf`: contents carried to a typed reference's own buffer type and back are the contents (the transport is
    along an equation of buffer types; substitute it). Functions jax outlined are printed over typed references, so their
    operations' results come wrapped in such pairs.
  * `results_inside`: a reading of the whole line in one simplification pass cannot rewrite under the dependent pairs
    ⟨shape, contents⟩ of a concatenation's operand list; this tactic finishes those positions by rewriting with the
    operations' result lemmas.
-/
import Idealize.ShloMosaic.Lib.StableHlo.Run

noncomputable section

namespace Cert.LibStretch

open Idealize.ShloMosaic Idealize.ShloMosaic.StableHlo

variable {τ : Topo} {sig : RefSig} {Val : EltTy → Type}

/-- What two lists of operations run one after the other leave is what the second leaves of what the first left. -/
theorem after_append : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

/-- Contents carried to a typed reference's own buffer type and back are the contents. -/
theorem ofBuf_toBuf {T : BufTy} (x : TRef sig T) (v : T.Contents Val) : x.ofBuf (Val := Val) (x.toBuf v) = v := by
  obtain ⟨r, h, h2, h3⟩ := x
  subst h
  rfl

/-- The remnants of a one-pass reading: contents read inside the operand list of a concatenation. -/
macro "results_inside" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.LibStretch

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.LibKeepdimsSum.lean ====
/-
  A sum along one axis of a matrix, kept with its unit axis, read at an entry at the ideal values. Inside a kernel
  `jnp.sum(x, axis, keepdims=True)` is a `vector.multi_reduction <add>` over the axis followed by a `vector.shape_cast`
  that puts the unit axis back. Two forms: the row sums of an [a, b] matrix kept as the column [a, 1], and the sum of an
  [a, 1] column kept as the one-entry array [1, 1]. On the extended reals the reduction is the plain finite sum over the
  reduced coordinate, so each reads as a sum of entries of the operand.
-/
import Idealize.ShloMosaic.Lib.Pipeline.Value
import Idealize.ShloMosaic.Lib.ValueIdx
import Idealize.ShloMosaic.PureOps.Ideal.Laws
import proofs.«106714_g41480794145007_cont_8to1_b_658_24_alg».proof.Proof.LibIdx

noncomputable section

namespace Cert.LibKeepdimsSum

open Idealize.ShloMosaic Idealize.ShloMosaic.ValueIdx
open scoped BigOperators

/-- The row sums of an [a, b] matrix, kept as a column: entry (p, u) of the column is the sum over the lanes k of the
    matrix at (p, k). -/
theorem rowSums_keep {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ k : Fin b, v (ix2 p k) := by
  refine (Cert.LibIdx.shapeCast_a_a1_apply _ hc p u).trans ?_
  refine (Ideal.multiReduction_add_single v _ h hφ hacc (ix1 p)).trans ?_
  refine Finset.sum_congr rfl fun k _ => congrArg v ?_
  funext d
  apply Fin.ext
  match d with
  | ⟨0, _⟩ => rfl
  | ⟨1, _⟩ => rfl

/-- The sum of an [a, 1] column, kept as a [1, 1] array: its one entry is the sum over the rows r of the column at
    (r, 0). -/
theorem colSum_keep {a : ℕ} (w : FVec Ideal ⟨2, ![a, 1]⟩ .f32)
    (h : (⟨2, ![a, 1]⟩ : Shape).Reduces [0] ⟨1, ![1]⟩) (hφ : FKind.Formats .f32)
    (hacc : (0x00000000#32 : BitVec 32) = FKind.add.neutral .f32 hφ)
    (hc : (⟨1, ![1]⟩ : Shape).ShapeCasts ⟨2, ![1, 1]⟩) (u u' : Fin 1) :
    shapeCast ⟨2, ![1, 1]⟩ (multiReduction .add [0] ⟨1, ![1]⟩ w 0x00000000#32 h hφ hacc) hc (ix2 u u')
      = ∑ r : Fin a, w (ix2 r (0 : Fin 1)) := by
  refine (Cert.LibIdx.shapeCast_a_a1_apply _ hc u u').trans ?_
  refine (Ideal.multiReduction_add_single w _ h hφ hacc (ix1 u)).trans ?_
  refine Finset.sum_congr rfl fun r _ => congrArg w ?_
  funext d
  apply Fin.ext
  match d with
  | ⟨0, _⟩ => rfl
  | ⟨1, _⟩ =>
    have hu : u.val = 0 := by omega
    show u.val = 0
    exact hu

end Cert.LibKeepdimsSum

end
-- ==== Proof.LibColumnBroadcast.lean ====
/-
  A column `[a, 1]` spread over `b` lanes by the kernel's broadcast, read at an entry: at `(p, c)` it is the column's
  entry `(p, 0)`. The companion of the library's row form (one row `[1, b]` spread down `a` rows).
-/
import Idealize.ShloMosaic.Lib.Pipeline.Value
import Idealize.ShloMosaic.Lib.ValueIdx

noncomputable section

namespace Cert.LibColumnBroadcast

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«106714_g41480794145007_cont_8to1_b_658_24_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.BlockValue.lean ====
/-
  What one grid point of the kernel leaves in its output block, entry by entry, at the ideal values.

  A point owns 32 rows. With x the [32, 64] block of inputs, w the whole [64, 100000] transposed weight matrix and
  b the [1, 100000] bias row, the body first stores the logits
      Y (p, q) = sum_k x (p, k) * w (k, q) + b (0, q)
  into the output block, then reads them back twice and overwrites the block with
      Y (p, q) - (s p + log (sum_q' exp (Y (p, q') - s p))),     s p = c * (sum_k |x (p, k)| + 1),
  a log-softmax of row p with the row's shift s p taken out instead of the row's largest logit (c is the kernel's
  named constant, 1 the word of 1.0). So the block the point leaves is the second store's value at the first store's
  value (`block_eq`), and that value at entry (p, q) is the formula above (`logits_apply`, `out_apply`).
-/
import proofs.«106714_g41480794145007_cont_8to1_b_658_24_alg».proof.Proof.Gen.KernelIdeal.Frame
import proofs.«106714_g41480794145007_cont_8to1_b_658_24_alg».proof.Proof.LibIdx
import proofs.«106714_g41480794145007_cont_8to1_b_658_24_alg».proof.Proof.LibKeepdimsSum
import proofs.«106714_g41480794145007_cont_8to1_b_658_24_alg».proof.Proof.LibColumnBroadcast
import proofs.«106714_g41480794145007_cont_8to1_b_658_24_alg».proof.Proof.LibMatRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Block

open Cert.KernelIdeal Cert.KernelIdeal.Gen Idealize.ShloMosaic Idealize.ShloMosaic.ValueIdx Idealize.ShloMosaic.TcCoe
open Idealize.SL.Sem
open scoped BigOperators

/-! ## The block a point leaves is the second store's value at the first store's -/

theorem hz : (![0, 0] : Fin 2 → Nat) = fun _ => 0 := funext fun a => by fin_cases a <;> rfl

/-- The body's two stores each cover the whole output block, and between them the block is read back: what the point
    leaves is the second store's value, computed from the input block x0 and from the first store's value, the logits
    of x0, w and b. -/
theorem block_eq {F : FTy → Type} [FloatOps F] [Named F] (c : Dev nD) (i : grid0.Coords)
    (a1 : Memref sig .tc .vmem S32x64 .bf16) (h1 : a1.IsWhole) (a2 : Memref sig .tc .vmem S64x100000 .bf16) (h2 : a2.IsWhole)
    (a3 : Memref sig .tc .vmem S1x100000 .f32) (h3 : a3.IsWhole) (a4 : Memref sig .tc .vmem S32x100000 .f32) (h4 : a4.IsWhole)
    (x0 : Vec F S32x64 .bf16) (x1 : Vec F S64x100000 .bf16) (x2 : Vec F S1x100000 .f32) :
    out0_A_3 c i a1 h1 a2 h2 a3 h3 a4 h4 x0 x1 x2 = k0_pay3 x0 (k0_pay2 x0 x1 x2) (k0_pay2 x0 x1 x2) := by
  unfold out0_A_3
  rw [View.read_writes_eq_canon _ _ _ (cover0_A_3 c i a1 h1 a2 h2 a3 h3 a4 h4 x0 x1 x2)]
  unfold kernelRun0_A
  dsimp only
  sl_unfold_words
  rw [View.canon_cons_unit_zero (S := S32x100000) hz, View.readCov_unit_zero (S := S32x100000) _ hz]
  simp only [View.readAt_eq_ld, h1.read_unread, h2.read_unread, h3.read_unread, View.ld_unit_zero (S := S32x64) hz,
    View.ld_unit_zero (S := S64x100000) hz, View.ld_unit_zero (S := S1x100000) hz]

/-! ## Entry-wise operations read at an entry -/

theorem log_apply {s : Shape} {φ : FTy} (v : FVec Ideal s φ) (i : s.Idx) : log v i = Ideal.log (v i) := rfl
theorem exp_apply {s : Shape} {φ : FTy} (v : FVec Ideal s φ) (i : s.Idx) : exp v i = Ideal.exp (v i) := rfl
theorem absf_apply {s : Shape} {φ : FTy} (v : FVec Ideal s φ) (i : s.Idx) : absf v i = max (v i) (-(v i)) := rfl

/-! ## The first store: the logits -/

/-- The printed dimension record of the body's product says what a plain [32, 64] x [64, 100000] product says. -/
theorem rowsTimesMat : Cert.LibMatRows.RowsTimesMat (a := 32) (k := 64) (n := 100000) dot_S32x64_S64x100000_S32x100000_1_0_0_1_n_n where
  rank := rfl
  size := rfl
  l0 := fun i q => by
    unfold DotDims.lhsIdx
    rw [dif_neg (show ¬(0 : Fin S32x64.rank) ∈ dot_S32x64_S64x100000_S32x100000_1_0_0_1_n_n.lhsBatch by decide),
      dif_pos (show (0 : Fin S32x64.rank) ∈ dot_S32x64_S64x100000_S32x100000_1_0_0_1_n_n.lhsNonContracting by decide)]
    rfl
  l1 := fun i q => dot_S32x64_S64x100000_S32x100000_1_0_0_1_n_n.lhsIdx_val_of_single rfl i q
  r0 := fun i q => dot_S32x64_S64x100000_S32x100000_1_0_0_1_n_n.rhsIdx_val_of_single rfl i q
  r1 := fun i q => by
    unfold DotDims.rhsIdx
    rw [dif_neg (show ¬(1 : Fin S64x100000.rank) ∈ dot_S32x64_S64x100000_S32x100000_1_0_0_1_n_n.rhsBatch by decide),
      dif_pos (show (1 : Fin S64x100000.rank) ∈ dot_S32x64_S64x100000_S32x100000_1_0_0_1_n_n.rhsNonContracting by decide)]
    rfl

/-- The logits of a block of rows: row p of x against column q of w, plus the bias at q. -/
def logit (x : S32x64.Idx → EReal) (w : S64x100000.Idx → EReal) (b : S1x100000.Idx → EReal) (p : Fin 32)
    (q : Fin 100000) : EReal :=
  (∑ k : Fin 64, x (ix2 p k) * w (ix2 k q)) + b (ix2 (0 : Fin 1) q)

/-- A product into the zero accumulator plus a bias row spread over the rows, at entry (p, q). -/
theorem logits_form (l : FVec Ideal S32x64 .bf16) (r : FVec Ideal S64x100000 .bf16) (b : FVec Ideal S1x100000 .f32)
    (hb : S1x100000.Broadcasts S32x100000) (p : Fin 32) (q : Fin 100000) :
    addf (matmul dot_S32x64_S64x100000_S32x100000_1_0_0_1_n_n none l r (constant (F := Ideal) S32x100000 .f32 0x00000000#32)) (broadcastTo S32x100000 b hb)
        (ix2 p q) = logit l r b p q := by
  rw [addf_apply, Cert.LibMatRows.matmul_rows rowsTimesMat l r p q, broadcastTo_1b_ab_apply b hb p q]
  unfold logit
  rfl

/-- The first store's value at entry (p, q) is the logit. -/
theorem logits_apply (x0 : Vec Ideal S32x64 .bf16) (x1 : Vec Ideal S64x100000 .bf16) (x2 : Vec Ideal S1x100000 .f32)
    (p : Fin 32) (q : Fin 100000) : k0_pay2 (F := Ideal) x0 x1 x2 (ix2 p q) = logit x0 x1 x2 p q := by
  unfold k0_pay2 k0_pay1
  simp only [shapeCast_self]
  exact logits_form _ _ _ _ p q

/-! ## The second store: the log-softmax with the row's shift taken out -/

/-- The shift of row p: c times (the sum of the absolute values of the row plus one). -/
def shift (c one : EReal) (x : S32x64.Idx → EReal) (p : Fin 32) : EReal :=
  c * ((∑ k : Fin 64, max (x (ix2 p k)) (-(x (ix2 p k)))) + one)

/-- Row p of Y at q, minus (the shift plus the log of the sum over the row of exp (Y - shift)). -/
def lsm (Y : S32x100000.Idx → EReal) (s : Fin 32 → EReal) (p : Fin 32) (q : Fin 100000) : EReal :=
  Y (ix2 p q) - (s p + Ideal.log (∑ q' : Fin 100000, Ideal.exp (Y (ix2 p q') - s p)))

/-- The shift as the body computes it, a column [32, 1], at (p, u). -/
theorem shift_form (x : FVec Ideal S32x64 .bf16) (c one : Ideal .f32) (hlt : FTy.bits .bf16 < FTy.bits .f32)
    (hred : S32x64.Reduces [1] S32) (hφ : FKind.Formats .f32)
    (hacc : (0x00000000#32 : BitVec 32) = FKind.add.neutral .f32 hφ) (hcast : S32.ShapeCasts S32x1) (p : Fin 32) (u : Fin 1) :
    mulf (broadcast S32x1 c)
        (addf (shapeCast S32x1 (multiReduction .add [1] S32 (absf (extf .f32 x hlt)) 0x00000000#32 hred hφ hacc) hcast)
          (broadcast S32x1 one)) (ix2 p u) = shift c one x p := by
  rw [mulf_apply, broadcast_apply, addf_apply, broadcast_apply,
    Cert.LibKeepdimsSum.rowSums_keep (absf (extf .f32 x hlt)) hred hφ hacc hcast p u]
  unfold shift
  refine congrArg (fun t => c * (t + one)) (Finset.sum_congr rfl fun k _ => ?_)
  rw [absf_apply, extf_apply]

/-- The second store's value over a block of logits Y and a column S of shifts, at entry (p, q). -/
theorem lsm_form (Y : FVec Ideal S32x100000 .f32) (S : FVec Ideal S32x1 .f32) (hred : S32x100000.Reduces [1] S32)
    (hφ : FKind.Formats .f32) (hacc : (0x00000000#32 : BitVec 32) = FKind.add.neutral .f32 hφ)
    (hcast : S32.ShapeCasts S32x1) (hbc : S32x1.Broadcasts S32x100000) (p : Fin 32) (q : Fin 100000) :
    subf Y (broadcastTo S32x100000
        (addf S (log (shapeCast S32x1
          (multiReduction .add [1] S32 (exp (subf Y (broadcastTo S32x100000 S hbc))) 0x00000000#32 hred hφ hacc) hcast))) hbc)
        (ix2 p q) = lsm Y (fun p => S (ix2 p (0 : Fin 1))) p q := by
  rw [subf_apply, Cert.LibColumnBroadcast.broadcastTo_a1_ab_apply _ hbc p q, addf_apply, log_apply,
    Cert.LibKeepdimsSum.rowSums_keep (exp (subf Y (broadcastTo S32x100000 S hbc))) hred hφ hacc hcast p 0]
  unfold lsm
  refine congrArg (fun t => Y (ix2 p q) - (S (ix2 p 0) + Ideal.log t)) (Finset.sum_congr rfl fun q' _ => ?_)
  rw [exp_apply, subf_apply, Cert.LibColumnBroadcast.broadcastTo_a1_ab_apply S hbc p q']

/-- The second store's value, computed from the input block x0 and a block of logits Y read back twice, at entry
    (p, q): the log-softmax of row p of Y with the shift of row p of x0 taken out. -/
theorem out_apply (x0 : Vec Ideal S32x64 .bf16) (Y : Vec Ideal S32x100000 .f32) (p : Fin 32) (q : Fin 100000) :
    k0_pay3 (F := Ideal) x0 Y Y (ix2 p q)
      = lsm Y (shift (Named.named (F := Ideal) κ "c_101_800" (φ := .f32) 0x3E0147AE#32) (Ideal.ofBits .f32 0x3F800000#32) x0) p q := by
  unfold k0_pay3 k0_pay1
  simp only [shapeCast_self]
  refine (lsm_form _ _ _ _ _ _ _ p q).trans ?_
  refine congrArg (fun s => lsm Y s p q) (funext fun p' => ?_)
  exact shift_form _ _ _ _ _ _ _ _ p' 0

end Cert.KernelIdeal.Block

end
-- ==== Proof.Spec.lean ====
/-
  The function both programs compute, entry by entry, on the extended reals.

  For inputs x [1024, 64], weights w [100000, 64] and bias b [100000]:
      logit (r, q) = sum_k x (r, k) * w (q, k) + b q                       (row r of x against row q of w)
      shift r      = c * (sum_k |x (r, k)| + one)                          (|a| written max a (-a))
      out (r, q)   = logit (r, q) - (shift r + log (sum_q' exp (logit (r, q') - shift r)))
  the log-softmax of row r of the logits with the row's shift taken out. The constants c and one are parameters: the
  value of the shift cancels whenever it is real, so nothing depends on what they denote beyond being real numbers.
-/
import Idealize.ShloMosaic.PureOps.Ideal
import Idealize.ShloMosaic.Lib.ValueIdx

noncomputable section

namespace Cert.LogSoftmaxSpec

open Idealize.ShloMosaic Idealize.ShloMosaic.ValueIdx
open scoped BigOperators

abbrev SX : Shape := ⟨2, ![1024, 64]⟩
abbrev SW : Shape := ⟨2, ![100000, 64]⟩
abbrev SB : Shape := ⟨1, ![100000]⟩
abbrev SO : Shape := ⟨2, ![1024, 100000]⟩

/-- The logit of row r and class q. -/
def logit (x : SX.Idx → EReal) (w : SW.Idx → EReal) (b : SB.Idx → EReal) (r : Fin 1024) (q : Fin 100000) : EReal :=
  (∑ k : Fin 64, x (ix2 r k) * w (ix2 q k)) + b (ix1 q)

/-- The shift taken out of row r. -/
def shift (c one : EReal) (x : SX.Idx → EReal) (r : Fin 1024) : EReal :=
  c * ((∑ k : Fin 64, max (x (ix2 r k)) (-(x (ix2 r k)))) + one)

/-- The result array. -/
def out (c one : EReal) (x : SX.Idx → EReal) (w : SW.Idx → EReal) (b : SB.Idx → EReal) : SO.Idx → EReal := fun i =>
  logit x w b (i 0) (i 1)
    - (shift c one x (i 0) + Ideal.log (∑ q' : Fin 100000, Ideal.exp (logit x w b (i 0) q' - shift c one x (i 0))))

/-- The result array at (r, q). -/
theorem out_apply (c one : EReal) (x : SX.Idx → EReal) (w : SW.Idx → EReal) (b : SB.Idx → EReal) (r : Fin 1024) (q : Fin 100000) :
    out c one x w b (ix2 r q)
      = logit x w b r q - (shift c one x r + Ideal.log (∑ q' : Fin 100000, Ideal.exp (logit x w b r q' - shift c one x r))) := rfl

end Cert.LogSoftmaxSpec

end
-- ==== Proof.KernelArray.lean ====
/-
  The kernel's result array after the run, as ONE function of the argument arrays.

  Before the region @main casts the inputs to bf16 (the identity at the ideal values), transposes the weights and casts
  them, and reshapes the bias to a row; so the region finds x itself, w transposed, and b as a [1, 100000] row. Grid point
  t stages rows 32 t … 32 t + 31 of x, the whole transposed weights and the whole bias row, and writes back rows
  32 t … 32 t + 31 of the result. What it writes back is the block computed in the body (the block-value module), which
  at entry (p, q) is the specification at row 32 t + p and class q: the row of x the block holds at p is row 32 t + p, the
  transposed weights at (k, q) are the weights at (q, k), the bias row at (0, q) is the bias at q. The 32 blocks of 32
  rows tile the 1024 rows, so the array ends holding the specification everywhere.
-/
import proofs.«106714_g41480794145007_cont_8to1_b_658_24_alg».proof.Proof.Gen.KernelIdeal.Value
import proofs.«106714_g41480794145007_cont_8to1_b_658_24_alg».proof.Proof.BlockValue
import proofs.«106714_g41480794145007_cont_8to1_b_658_24_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Whole

open Cert.KernelIdeal Cert.KernelIdeal.Gen Idealize.ShloMosaic Idealize.ShloMosaic.ValueIdx Idealize.ShloMosaic.TcCoe
open Idealize.SL.Sem Idealize.ShloMosaic.StableHlo
open Idealize.ShloMosaic.Pipeline (Dat)

variable (m : (ℓ : Loc nD τ sig) → Buf (Elt Ideal) ℓ) (ρ : Dev nD → PrngReg)

/-- The kernel's two scalar constants at the ideal values: the named factor of the shift, and the word of 1.0. -/
abbrev cst : EReal := Named.named (F := Ideal) κ "c_101_800" (φ := .f32) 0x3E0147AE#32
abbrev one : EReal := Ideal.ofBits .f32 0x3F800000#32

/-- The specification at this memory's argument arrays. -/
abbrev G (c : Dev nD) : S1024x100000.Idx → EReal :=
  Cert.LogSoftmaxSpec.out cst one (m ((c : Thread nD τ).loc main_arg0)) (m ((c : Thread nD τ).loc main_arg2)) (m ((c : Thread nD τ).loc main_arg3))

/-! ## What the region finds in the three staged arrays, at an entry -/

theorem v0_apply (c : Dev nD) (r : Fin 1024) (k : Fin 64) :
    (V m c main_v0 : S1024x64.Idx → EReal) (ix2 r k) = ((m ((c : Thread nD τ).loc main_arg0)) : S1024x64.Idx → EReal) (ix2 r k) := by
  have e : (V m c main_v0 : S1024x64.Idx → EReal)
      = truncf (F := Ideal) (s := S1024x64) (φ := .f32) .bf16 (m ((c : Thread nD τ).loc main_arg0)) bitsLt_bf16_f32 := by
    dsimp only [Gen.V, Gen.hostOps0]; after_results <;> rfl
  rw [e, truncf_apply]

theorem v2_apply (c : Dev nD) (k : Fin 64) (q : Fin 100000) :
    (V m c main_v2 : S64x100000.Idx → EReal) (ix2 k q) = ((m ((c : Thread nD τ).loc main_arg2)) : S100000x64.Idx → EReal) (ix2 q k) := by
  have e : (V m c main_v2 : S64x100000.Idx → EReal)
      = truncf (F := Ideal) (s := S64x100000) (φ := .f32) .bf16
          (transpose S64x100000 [1, 0] ((m ((c : Thread nD τ).loc main_arg2)) : S100000x64.Idx → EReal) transposes_S100000x64_S64x100000_1_0) bitsLt_bf16_f32 := by
    dsimp only [Gen.V, Gen.hostOps0]; after_results <;> rfl
  rw [e, truncf_apply, transpose_ix2_apply]

theorem v3_apply (c : Dev nD) (u : Fin 1) (q : Fin 100000) :
    (V m c main_v3 : S1x100000.Idx → EReal) (ix2 u q) = ((m ((c : Thread nD τ).loc main_arg3)) : S100000.Idx → EReal) (ix1 q) := by
  have e : (V m c main_v3 : S1x100000.Idx → EReal) = shapeCast S1x100000 (m ((c : Thread nD τ).loc main_arg3)) shapeCasts_S100000_S1x100000 := by
    dsimp only [Gen.V, Gen.hostOps0]; after_results <;> rfl
  rw [e, shapeCast_a_1a_apply]

/-! ## The index maps, decided over the 32 grid points -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The input blocks at a point, at an entry -/

/-- Row p of the inputs' block at point t is row 32 t + p of the inputs. -/
theorem iblk0_apply (c : Dev nD) (t : Fin cfg0.N) (p : Fin 32) (k : Fin 64) (r : Fin 1024) (hr : r.val = t.val * 32 + p.val) :
    (iblk m c 0 t : Vec Ideal S32x64 .bf16) (ix2 p k) = ((m ((c : Thread nD τ).loc main_arg0)) : S1024x64.Idx → EReal) (ix2 r k) := by
  obtain ⟨e0, e1, -⟩ := idx_facts t
  unfold iblk
  rw [View.read_apply, ← v0_apply m c r k]
  show (V m c main_v0 : S1024x64.Idx → EReal) _ = (V m c main_v0 : S1024x64.Idx → EReal) _
  refine congrArg (V m c main_v0 : S1024x64.Idx → EReal) ?_
  funext a; apply Fin.ext
  match a with
  | ⟨0, _⟩ => show win0_0.index t (0 : Fin 2) * 32 + 1 * p.val = r.val; rw [e0, hr]; omega
  | ⟨1, _⟩ => show win0_0.index t (1 : Fin 2) * 64 + 1 * k.val = k.val; rw [e1]; omega

/-- The weights' block at every point is the whole transposed matrix: at (k, q) the weights at (q, k). -/
theorem iblk1_apply (c : Dev nD) (t : Fin cfg0.N) (k : Fin 64) (q : Fin 100000) :
    (iblk m c 1 t : Vec Ideal S64x100000 .bf16) (ix2 k q) = ((m ((c : Thread nD τ).loc main_arg2)) : S100000x64.Idx → EReal) (ix2 q k) := by
  obtain ⟨-, -, e2, e3, -⟩ := idx_facts t
  unfold iblk
  rw [View.read_apply, ← v2_apply m c k q]
  show (V m c main_v2 : S64x100000.Idx → EReal) _ = (V m c main_v2 : S64x100000.Idx → EReal) _
  refine congrArg (V m c main_v2 : S64x100000.Idx → EReal) ?_
  funext a; apply Fin.ext
  match a with
  | ⟨0, _⟩ => show win0_1.index t (0 : Fin 2) * 64 + 1 * k.val = k.val; rw [e2]; omega
  | ⟨1, _⟩ => show win0_1.index t (1 : Fin 2) * 100000 + 1 * q.val = q.val; rw [e3]; omega

/-- The bias block at every point is the whole row: at (0, q) the bias at q. -/
theorem iblk2_apply (c : Dev nD) (t : Fin cfg0.N) (q : Fin 100000) :
    (iblk m c 2 t : Vec Ideal S1x100000 .f32) (ix2 (0 : Fin 1) q) = ((m ((c : Thread nD τ).loc main_arg3)) : S100000.Idx → EReal) (ix1 q) := by
  obtain ⟨-, -, -, -, e4, e5, -⟩ := idx_facts t
  unfold iblk
  rw [View.read_apply, ← v3_apply m c 0 q]
  show (V m c main_v3 : S1x100000.Idx → EReal) _ = (V m c main_v3 : S1x100000.Idx → EReal) _
  refine congrArg (V m c main_v3 : S1x100000.Idx → EReal) ?_
  funext a; apply Fin.ext
  match a with
  | ⟨0, _⟩ => show win0_2.index t (0 : Fin 2) * 1 + 1 * 0 = 0; rw [e4]
  | ⟨1, _⟩ => show win0_2.index t (1 : Fin 2) * 100000 + 1 * q.val = q.val; rw [e5]; omega

/-! ## One point's block is the specification's rows -/

/-- For ANY blocks x0, x1, x2 that hold row r of the inputs at p, the transposed weights and the bias row: the body's
    result at (p, q) is the specification at (r, q). -/
theorem point_value (X : S1024x64.Idx → EReal) (W : S100000x64.Idx → EReal) (B : S100000.Idx → EReal)
    (x0 : Vec Ideal S32x64 .bf16) (x1 : Vec Ideal S64x100000 .bf16) (x2 : Vec Ideal S1x100000 .f32)
    (p : Fin 32) (q : Fin 100000) (r : Fin 1024)
    (hx0 : ∀ k : Fin 64, x0 (ix2 p k) = X (ix2 r k))
    (hx1 : ∀ (k : Fin 64) (q' : Fin 100000), x1 (ix2 k q') = W (ix2 q' k))
    (hx2 : ∀ q' : Fin 100000, x2 (ix2 (0 : Fin 1) q') = B (ix1 q')) :
    k0_pay3 (F := Ideal) x0 (k0_pay2 x0 x1 x2) (k0_pay2 x0 x1 x2) (ix2 p q)
      = Cert.LogSoftmaxSpec.out cst one X W B (ix2 r q) := by
  have hl : ∀ q' : Fin 100000, k0_pay2 (F := Ideal) x0 x1 x2 (ix2 p q') = Cert.LogSoftmaxSpec.logit X W B r q' := fun q' => by
    rw [Block.logits_apply]
    unfold Block.logit Cert.LogSoftmaxSpec.logit
    rw [hx2 q']
    exact congrArg (· + B (ix1 q')) (Finset.sum_congr rfl fun k _ => by rw [hx0 k, hx1 k q'])
  have hs : Block.shift cst one x0 p = Cert.LogSoftmaxSpec.shift cst one X r := by
    unfold Block.shift Cert.LogSoftmaxSpec.shift
    exact congrArg (fun t => cst * (t + one)) (Finset.sum_congr rfl fun k _ => by rw [hx0 k])
  rw [Block.out_apply]
  unfold Block.lsm Cert.LogSoftmaxSpec.out
  simp only [hl, hs]

/-- WHAT POINT t WRITES BACK is block t of the specification. -/
theorem flushed_eq (c : Dev nD) (t : Fin cfg0.N) :
    (dats m 0 c).flushed 3 t = ((cfg0.win 3).blk t).view.read (Elt Ideal) (G m c) := by
  have key : ∀ j : S32x100000.Idx, k0_pay3 (F := Ideal) (iblk m c 0 t) (k0_pay2 (iblk m c 0 t) (iblk m c 1 t) (iblk m c 2 t)) (k0_pay2 (iblk m c 0 t) (iblk m c 1 t) (iblk m c 2 t)) j = G m c (((cfg0.win 3).blk t).view.emb j) := by
    intro j
    obtain ⟨p, q, rfl⟩ : ∃ (p : Fin 32) (q : Fin 100000), j = ix2 p q := ⟨j 0, j 1, eq_ix2 j⟩
    obtain ⟨-, -, -, -, -, -, e6, e7⟩ := idx_facts t
    have ht : t.val < 32 := lt_of_lt_of_eq t.isLt N_0
    have hr : t.val * 32 + p.val < 1024 := by have := p.isLt; omega
    refine (point_value (m ((c : Thread nD τ).loc main_arg0)) (m ((c : Thread nD τ).loc main_arg2)) (m ((c : Thread nD τ).loc main_arg3)) (iblk m c 0 t) (iblk m c 1 t) (iblk m c 2 t) p q ⟨t.val * 32 + p.val, hr⟩
      (fun k => iblk0_apply m c t p k _ rfl) (fun k q' => iblk1_apply m c t k q') (fun q' => iblk2_apply m c t q')).trans ?_
    refine congrArg (G m c) ?_
    funext a; apply Fin.ext
    match a with
    | ⟨0, _⟩ => show t.val * 32 + p.val = win0_3.index t (0 : Fin 2) * 32 + 1 * p.val; rw [e6]; omega
    | ⟨1, _⟩ => show q.val = win0_3.index t (1 : Fin 2) * 100000 + 1 * q.val; rw [e7]; omega
  rw [Value.flushed3_A, Block.block_eq]
  funext j
  exact key j

/-! ## The blocks tile the array -/

theorem mem_blk (t : Fin cfg0.N) (i : S1024x100000.Idx) :
    i ∈ ((cfg0.win 3).blk t).view.set ↔ ∀ a : Fin 2, win0_3.index t a * S32x100000.size a ≤ (i a).val
      ∧ (i a).val < win0_3.index t a * S32x100000.size a + S32x100000.size a := by
  show i ∈ ((View.whole main_v4).slice (win0_3.rect t)).set ↔ _
  rw [View.set_slice_whole, Rect.mem_set_unit]
  exact Iff.rfl

/-- Row r of the result is in the block of point r / 32. -/
theorem cover (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  have hN : cfg0.N = 32 := N_0
  have ht : (i 0).val / 32 < cfg0.N := by rw [hN]; omega
  obtain ⟨-, -, -, -, -, -, e6, e7⟩ := idx_facts ⟨(i 0).val / 32, ht⟩
  refine ⟨⟨(i 0).val / 32, ht⟩, flush0_3 _, ?_⟩
  rw [mem_blk]
  intro a
  match a with
  | ⟨0, _⟩ =>
    show win0_3.index ⟨(i 0).val / 32, ht⟩ (0 : Fin 2) * 32 ≤ (i 0).val
      ∧ (i 0).val < win0_3.index ⟨(i 0).val / 32, ht⟩ (0 : Fin 2) * 32 + 32
    rw [e6]; show (i 0).val / 32 * 32 ≤ (i 0).val ∧ (i 0).val < (i 0).val / 32 * 32 + 32; omega
  | ⟨1, _⟩ =>
    show win0_3.index ⟨(i 0).val / 32, ht⟩ (1 : Fin 2) * 100000 ≤ (i 1).val
      ∧ (i 1).val < win0_3.index ⟨(i 0).val / 32, ht⟩ (1 : Fin 2) * 100000 + 100000
    rw [e7]; omega

/-- THE ARRAY after the run is the specification. -/
theorem final (c : Dev nD) : (dats m 0 c).arrAt 3 cfg0.N = G m c :=
  (dats m 0 c).arrAt_eq_of_cover 3 (G m c) (fun t _ => flushed_eq m c t) cover

/-! ## The run, read -/

/-- The kernel's run with the result array at the specification, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibGcnBatchNorm.lean ====
/-
  Extended-real algebra for a normalised message-passing layer: when every quantity involved is a real number,
  two ways of writing the layer are the same extended real.

  * IsReal a: the extended real a is (the coercion of) a real number. It is closed under zero, one, sum, difference,
    product, negation, finite sums, division by a nonzero real, and if-then-else; it is the same as being neither
    infinity (isReal_iff). An IEEE pattern whose exponent field is not all ones denotes a real (isReal_ieee,
    isReal_ofBits_f32), and the single-precision words of 50000, of the float nearest 1/3 and of the float nearest
    1e-5 are evaluated (ofBits_f32_50000, isReal_ofBits_f32_third, isReal_ofBits_f32_eps).
  * scale_comm: scaling every term of a sum of products by one real factor before the sum, or the sum afterwards, is
    the same — distributivity, which on the extended reals needs the terms to be real.
  * variance_eq: the mean of the squared deviations from the mean is the mean of the squares minus the squared mean,
    the means being taken by dividing by the (nonzero, real) number of terms.
  * sum_fin_three: a sum over Fin (A * B * C) of a function of the position is the three-level sum over
    A blocks, B tiles in a block and C rows in a tile, at position (a * B + b) * C + c (sum_fin_three' for a
    function of the index itself).
-/
import Idealize.ShloMosaic.PureOps.Ideal
import Idealize.ShloMosaic.PureOps.Ideal.Laws
import Mathlib.Algebra.BigOperators.Fin
import Mathlib.Algebra.BigOperators.Intervals
import Mathlib.Tactic

noncomputable section

namespace Cert.LibGcnBatchNorm

open Idealize.ShloMosaic
open scoped BigOperators

/-! ### Real extended reals -/

/-- The extended real a is a real number. -/
def IsReal (a : EReal) : Prop := ∃ r : ℝ, a = (r : EReal)

/-- The coercion of a real is real. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- The sum of two reals is real. -/
theorem IsReal.add {a b : EReal} (ha : IsReal a) (hb : IsReal b) : IsReal (a + b) := by
  obtain ⟨x, rfl⟩ := ha; obtain ⟨y, rfl⟩ := hb; exact ⟨x + y, (EReal.coe_add x y).symm⟩

/-- The difference of two reals is real. -/
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- The product of two reals is real. -/
theorem IsReal.mul {a b : EReal} (ha : IsReal a) (hb : IsReal b) : IsReal (a * b) := by
  obtain ⟨x, rfl⟩ := ha; obtain ⟨y, rfl⟩ := hb; exact ⟨x * y, (EReal.coe_mul x y).symm⟩

/-- The negation of a real is real. -/
theorem IsReal.neg {a : EReal} (ha : IsReal a) : IsReal (-a) := by
  obtain ⟨x, rfl⟩ := ha; exact ⟨-x, (EReal.coe_neg x).symm⟩

/-- The larger of two reals is real. -/
theorem IsReal.max {a b : EReal} (ha : IsReal a) (hb : IsReal b) : IsReal (max a b) := by
  rcases max_choice a b with h | h <;> rw [h] <;> assumption

/-- Either branch real, the conditional is real. -/
theorem IsReal.ite {p : Prop} [Decidable p] {a b : EReal} (ha : IsReal a) (hb : IsReal b) :
    IsReal (if p then a else b) := by
  split_ifs <;> assumption

/-- A finite sum of reals is real. -/
theorem IsReal.sum {ι : Type*} (s : Finset ι) (f : ι → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A real divided by a nonzero real is real. -/
theorem IsReal.div_coe {a : EReal} (ha : IsReal a) {c : ℝ} (hc : c ≠ 0) : IsReal (Ideal.div a (c : EReal)) := by
  rw [Ideal.div_coe hc]; exact ha.mul (isReal_coe _)

/-- A real divided by a nonzero real is real, the divisor given as an extended real with its real value. -/
theorem IsReal.div {a n : EReal} (ha : IsReal a) {c : ℝ} (hn : n = (c : EReal)) (hc : c ≠ 0) :
    IsReal (Ideal.div a n) := by
  rw [hn]; exact ha.div_coe hc

/-- Real means neither infinity. -/
theorem isReal_iff (a : EReal) : IsReal a ↔ a ≠ ⊤ ∧ a ≠ ⊥ := by
  constructor
  · rintro ⟨r, rfl⟩; exact ⟨EReal.coe_ne_top r, EReal.coe_ne_bot r⟩
  · rintro ⟨ht, hb⟩; exact ⟨a.toReal, (EReal.coe_toReal ht hb).symm⟩

/-- A real is not plus infinity. -/
theorem IsReal.ne_top {a : EReal} (ha : IsReal a) : a ≠ ⊤ := ((isReal_iff a).mp ha).1

/-- A real is not minus infinity. -/
theorem IsReal.ne_bot {a : EReal} (ha : IsReal a) : a ≠ ⊥ := ((isReal_iff a).mp ha).2

/-- The coercion of a finite sum of reals is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ### Bit patterns that denote reals -/

/-- An IEEE pattern whose exponent field is not all ones denotes a real number. -/
theorem isReal_ieee (e m : ℕ) {w : ℕ} (b : BitVec w) (h : (b.extractLsb' m e).toNat ≠ 2 ^ e - 1) :
    IsReal (Ideal.ieee e m b) := by
  unfold Ideal.ieee
  simp only [if_neg h]
  split_ifs <;> exact isReal_coe _

/-- A single-precision word whose exponent field is not 255 denotes a real number. -/
theorem isReal_ofBits_f32 (w : BitVec 32) (h : (w.extractLsb' 23 8).toNat ≠ 255) : IsReal (Ideal.ofBits .f32 w) :=
  isReal_ieee 8 23 w h

/-- The single-precision word of 50000. -/
theorem ofBits_f32_50000 : Ideal.ofBits .f32 0x47435000#32 = ((50000 : ℝ) : EReal) := by
  simp [Ideal.ofBits, Ideal.ieee, -EReal.coe_mul]; norm_num

/-- The single-precision word nearest 1/3 denotes a real. -/
theorem isReal_ofBits_f32_third : IsReal (Ideal.ofBits .f32 0x3EAAAAAB#32) :=
  isReal_ofBits_f32 _ (by decide)

/-- The single-precision word nearest 1e-5 denotes a real. -/
theorem isReal_ofBits_f32_eps : IsReal (Ideal.ofBits .f32 0x3727C5AC#32) :=
  isReal_ofBits_f32 _ (by decide)

/-- The all-zero single-precision word is zero. -/
theorem ofBits_f32_zero : Ideal.ofBits .f32 0x00000000#32 = 0 := Ideal.ofBits_zero_f32

/-! ### Scaling before or after a sum of products -/

/-- Scaling each term of a sum of products by one factor before the sum, or the whole sum afterwards, is the same
    extended real when the terms, the weights and the factor are real. -/
theorem scale_comm' {K : Type*} (t : Finset K) (p w : K → EReal) (s : EReal)
    (hp : ∀ k, IsReal (p k)) (hw : ∀ k, IsReal (w k)) (hs : IsReal s) :
    ∑ k ∈ t, (p k * s) * w k = (∑ k ∈ t, p k * w k) * s := by
  choose p' hp' using hp
  choose w' hw' using hw
  obtain ⟨s', rfl⟩ := hs
  simp only [hp', hw', ← EReal.coe_mul]
  rw [← coe_sum, ← coe_sum, ← EReal.coe_mul, Finset.sum_mul]
  congr 1
  exact Finset.sum_congr rfl fun k _ => by ring

/-- The same with each term itself a product of two reals: the sum over k of (a k · b k · s) · w k is
    (the sum over k of (a k · b k) · w k) · s. -/
theorem scale_comm {K : Type*} [Fintype K] (a b w : K → EReal) (s : EReal)
    (ha : ∀ k, IsReal (a k)) (hb : ∀ k, IsReal (b k)) (hw : ∀ k, IsReal (w k)) (hs : IsReal s) :
    ∑ k, (a k * b k * s) * w k = (∑ k, (a k * b k) * w k) * s :=
  scale_comm' Finset.univ (fun k => a k * b k) w s (fun k => (ha k).mul (hb k)) hw hs

/-! ### The two forms of the variance -/

/-- Over the reals: the mean of the squared deviations from the mean is the mean of the squares minus the squared
    mean, with 1/n written as a factor. -/
theorem variance_real {V : Type*} [Fintype V] (h : V → ℝ) {n : ℝ} (hn : n ≠ 0) (hcard : (Fintype.card V : ℝ) = n) :
    (∑ v, (h v - (∑ v, h v) * (1 / n)) * (h v - (∑ v, h v) * (1 / n))) * (1 / n)
      = (∑ v, h v * h v) * (1 / n) - ((∑ v, h v) * (1 / n)) * ((∑ v, h v) * (1 / n)) := by
  set S : ℝ := ∑ v, h v with hS
  have hexp : ∀ v, (h v - S * (1 / n)) * (h v - S * (1 / n))
      = h v * h v - (2 * (S * (1 / n))) * h v + (S * (1 / n)) * (S * (1 / n)) := fun v => by ring
  simp only [hexp, Finset.sum_add_distrib, Finset.sum_sub_distrib, ← Finset.mul_sum, Finset.sum_const,
    Finset.card_univ, nsmul_eq_mul, hcard, ← hS]
  field_simp
  ring

/-- On the extended reals, for a column of reals and a nonzero real count equal to the number of terms: the mean
    (sum divided by the count) of the squared deviations from the mean is the mean of the squares minus the
    squared mean. -/
theorem variance_eq {V : Type*} [Fintype V] (h : V → EReal) (hh : ∀ v, IsReal (h v)) {n : ℝ} (hn : n ≠ 0)
    (hcard : (Fintype.card V : ℝ) = n) :
    Ideal.div (∑ v, (h v - Ideal.div (∑ v, h v) (n : EReal)) * (h v - Ideal.div (∑ v, h v) (n : EReal))) (n : EReal)
      = Ideal.div (∑ v, h v * h v) (n : EReal)
        - Ideal.div (∑ v, h v) (n : EReal) * Ideal.div (∑ v, h v) (n : EReal) := by
  choose h' hh' using hh
  simp only [hh', Ideal.div_coe hn, ← EReal.coe_mul, ← coe_sum, ← EReal.coe_sub]
  congr 1
  exact variance_real h' hn hcard

/-! ### A flat sum as a three-level sum -/

/-- A sum over range (a * b) is the sum over a consecutive tiles of length b. -/
theorem sum_range_mul {M : Type*} [AddCommMonoid M] (g : ℕ → M) (a b : ℕ) :
    ∑ n ∈ Finset.range (a * b), g n = ∑ i ∈ Finset.range a, ∑ j ∈ Finset.range b, g (i * b + j) := by
  induction a with
  | zero => simp
  | succ a ih => rw [Nat.succ_mul, Finset.sum_range_add, ih, Finset.sum_range_succ]

/-- A sum over Fin (A * B * C) of a function of the position is the sum over A blocks, B tiles in a block and
    C rows in a tile of the function at position (a * B + b) * C + c. -/
theorem sum_fin_three {M : Type*} [AddCommMonoid M] (A B C : ℕ) (f : ℕ → M) :
    ∑ v : Fin (A * B * C), f v.val
      = ∑ a : Fin A, ∑ b : Fin B, ∑ c : Fin C, f ((a.val * B + b.val) * C + c.val) := by
  rw [Fin.sum_univ_eq_sum_range f (A * B * C), sum_range_mul f (A * B) C,
    sum_range_mul (fun i => ∑ c ∈ Finset.range C, f (i * C + c)) A B,
    ← Fin.sum_univ_eq_sum_range (fun a => ∑ b ∈ Finset.range B, ∑ c ∈ Finset.range C, f ((a * B + b) * C + c)) A]
  refine Finset.sum_congr rfl fun a _ => ?_
  rw [← Fin.sum_univ_eq_sum_range (fun b => ∑ c ∈ Finset.range C, f ((a.val * B + b) * C + c)) B]
  refine Finset.sum_congr rfl fun b _ => ?_
  rw [← Fin.sum_univ_eq_sum_range (fun c => f ((a.val * B + b.val) * C + c)) C]

/-- The position (a * B + b) * C + c of row c of tile b of block a lies below A * B * C. -/
theorem three_lt {A B C : ℕ} (a : Fin A) (b : Fin B) (c : Fin C) : (a.val * B + b.val) * C + c.val < A * B * C := by
  have h1 : a.val * B + b.val + 1 ≤ A * B := by
    calc a.val * B + b.val + 1 ≤ a.val * B + B := by have := b.isLt; omega
      _ = (a.val + 1) * B := by ring
      _ ≤ A * B := Nat.mul_le_mul_right B a.isLt
  calc (a.val * B + b.val) * C + c.val < (a.val * B + b.val) * C + C := by have := c.isLt; omega
    _ = (a.val * B + b.val + 1) * C := by ring
    _ ≤ A * B * C := Nat.mul_le_mul_right C h1

/-- A sum over Fin (A * B * C) is the sum over A blocks, B tiles in a block and C rows in a tile of the term at
    position (a * B + b) * C + c. -/
theorem sum_fin_three' {M : Type*} [AddCommMonoid M] (A B C : ℕ) (g : Fin (A * B * C) → M) :
    ∑ v, g v = ∑ a : Fin A, ∑ b : Fin B, ∑ c : Fin C, g ⟨(a.val * B + b.val) * C + c.val, three_lt a b c⟩ := by
  have h := sum_fin_three A B C (fun n => if hn : n < A * B * C then g ⟨n, hn⟩ else 0)
  simp only [Fin.is_lt, three_lt, dif_pos, Fin.eta] at h
  exact h

end Cert.LibGcnBatchNorm

end
-- ==== Proof.LogSoftmaxShift.lean ====
/-
  Log-softmax does not depend on the shift taken out of the scores.

  For real scores l_j over a nonempty finite index set and any real shift a,
      log (sum_j exp (l_j - a)) = log (sum_j exp l_j) - a,
  because exp (l_j - a) = exp l_j * exp (-a) and the sum of the exp l_j is positive. Hence, on the extended reals, for
  scores that are all real and two real shifts m and a,
      (l_q - m) - log (sum_j exp (l_j - m)) = l_q - (a + log (sum_j exp (l_j - a))):
  both sides are the real number l_q - log (sum_j exp l_j). The left side is how a log-softmax is usually written, with
  m the largest score; the right side takes any other real a — an upper bound of the scores, say — out instead.
  The realness of the scores is needed: with an infinite score the two sides differ.

  Also here: the largest of finitely many real scores, taken as the fold of max from minus infinity over a nonempty
  index set, is a real number.
-/
import Idealize.ShloMosaic.PureOps.Ideal
import proofs.«106714_g41480794145007_cont_8to1_b_658_24_alg».proof.Proof.LibGcnBatchNorm

noncomputable section

namespace Cert.LogSoftmaxShift

open Idealize.ShloMosaic Cert.LibGcnBatchNorm
open scoped BigOperators

variable {ι : Type*} [Fintype ι] [Nonempty ι]

/-- A sum of exponentials over a nonempty finite index set is positive. -/
theorem sum_exp_pos (l : ι → ℝ) : 0 < ∑ j, Real.exp (l j) :=
  Finset.sum_pos (fun j _ => Real.exp_pos (l j)) Finset.univ_nonempty

/-- Over the reals: shifting every score by a moves the log of the sum of exponentials by a. -/
theorem log_sum_exp_sub (l : ι → ℝ) (a : ℝ) :
    Real.log (∑ j, Real.exp (l j - a)) = Real.log (∑ j, Real.exp (l j)) - a := by
  have h : ∀ j, Real.exp (l j - a) = Real.exp (l j) * Real.exp (-a) := fun j => by
    rw [sub_eq_add_neg, Real.exp_add]
  simp only [h]
  rw [← Finset.sum_mul, Real.log_mul (sum_exp_pos l).ne' (Real.exp_pos (-a)).ne', Real.log_exp]
  ring

/-- The same at the ideal values, for real scores and a real shift: the log of the sum of the exponentials of the
    shifted scores is the real number log (sum_j exp l_j) - a. -/
theorem log_sum_exp_shift (l : ι → ℝ) (a : ℝ) :
    Ideal.log (∑ j, Ideal.exp ((l j : EReal) - (a : EReal)))
      = ((Real.log (∑ j, Real.exp (l j)) - a : ℝ) : EReal) := by
  have h : ∀ j, Ideal.exp ((l j : EReal) - (a : EReal)) = ((Real.exp (l j - a) : ℝ) : EReal) := fun j => by
    rw [← EReal.coe_sub, Ideal.exp_coe]
  simp only [h]
  rw [← coe_sum, Ideal.log_coe, if_neg (not_le.mpr (sum_exp_pos fun j => l j - a)), log_sum_exp_sub]

/-- LOG-SOFTMAX IS SHIFT-INVARIANT: for real scores L_j and real shifts M and A, subtracting M and then the log of the
    sum of exp (L_j - M) is subtracting A plus the log of the sum of exp (L_j - A). -/
theorem shift_invariant (L : ι → EReal) (hL : ∀ j, IsReal (L j)) {M A : EReal} (hM : IsReal M) (hA : IsReal A) (q : ι) :
    (L q - M) - Ideal.log (∑ j, Ideal.exp (L j - M)) = L q - (A + Ideal.log (∑ j, Ideal.exp (L j - A))) := by
  choose l hl using hL
  obtain ⟨b, rfl⟩ := hM
  obtain ⟨a, rfl⟩ := hA
  simp only [hl]
  rw [log_sum_exp_shift, log_sum_exp_shift, ← EReal.coe_sub, ← EReal.coe_sub, ← EReal.coe_add, ← EReal.coe_sub]
  exact congrArg _ (by ring)

/-- The largest of finitely many real scores, as the fold of max from minus infinity over a nonempty index set, is a
    real number: it is below plus infinity because every score is, and above some score. -/
theorem isReal_fold_max (f : ι → EReal) (hf : ∀ j, IsReal (f j)) :
    IsReal ((Finset.univ : Finset ι).fold max ⊥ f) := by
  rw [isReal_iff]
  constructor
  · have h : (Finset.univ : Finset ι).fold max ⊥ f < ⊤ := by
      rw [Finset.fold_max_lt]
      exact ⟨bot_lt_top, fun j _ => lt_top_iff_ne_top.mpr (hf j).ne_top⟩
    exact h.ne
  · obtain ⟨j⟩ := ‹Nonempty ι›
    have h : f j ≤ (Finset.univ : Finset ι).fold max ⊥ f := by
      rw [Finset.le_fold_max]
      exact Or.inr ⟨j, Finset.mem_univ j, le_rfl⟩
    intro hb
    rw [hb] at h
    exact (hf j).ne_bot (le_bot_iff.mp h)

end Cert.LogSoftmaxShift

end
-- ==== Proof.ReferenceValue.lean ====
/-
  The reference's result is the specification, when every entry of the inputs, the weights and the bias is a real.

  The reference computes the logits L (r, q) = sum_k x (r, k) * w (q, k) + b q (a product with the transposed weights, plus
  the bias spread over the rows), the largest logit M r of each row (a max-reduction from -inf, then a max with -inf),
  and (L (r, q) - M r) - log (0 + sum_q' exp (L (r, q') - M r)). With real inputs every logit is real, so M r — the fold
  of max from -inf over a nonempty row of reals — is real, and so is the shift the specification takes out instead;
  log-softmax does not depend on which real is taken out (the shift-invariance law), so the two agree.
-/
import proofs.«106714_g41480794145007_cont_8to1_b_658_24_alg».proof.Proof.ReferenceReadPatched
import proofs.«106714_g41480794145007_cont_8to1_b_658_24_alg».proof.Proof.Spec
import proofs.«106714_g41480794145007_cont_8to1_b_658_24_alg».proof.Proof.LogSoftmaxShift
import proofs.«106714_g41480794145007_cont_8to1_b_658_24_alg».proof.Proof.LibGcnBatchNorm
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx
open Cert.LibGcnBatchNorm
open scoped BigOperators

variable (x0 : FVec Ideal S1024x64 .f32) (x2 : FVec Ideal S100000x64 .f32) (x3 : FVec Ideal S100000 .f32)

/-! ## The logits -/

/-- The reference's logits at (r, q): row r of the inputs against row q of the weights, plus the bias at q. -/
theorem logits_apply (r : Fin 1024) (q : Fin 100000) :
    val_main_v4 (F := Ideal) x0 x2 x3 (ix2 r q) = Cert.LogSoftmaxSpec.logit x0 x2 x3 r q := by
  have el : ∀ k : Fin 64, lidx_main_v1 (ix2 r q) k = ix2 r k := fun k =>
    funext fun a => Fin.ext (by match a with | ⟨0, _⟩ => rfl | ⟨1, _⟩ => rfl)
  have er : ∀ k : Fin 64, idx_main_v0 (ridx_main_v1 (ix2 r q) k) = ix2 q k := fun k =>
    funext fun a => Fin.ext (by match a with | ⟨0, _⟩ => rfl | ⟨1, _⟩ => rfl)
  have eb : idx_main_v2 (idx_main_v3 (ix2 r q)) = ix1 q :=
    funext fun a => Fin.ext (by match a with | ⟨0, _⟩ => rfl)
  rw [val_main_v4_apply, val_main_v1_apply, val_main_v3_apply, val_main_v2_apply, eb]
  unfold Cert.LogSoftmaxSpec.logit
  simp only [val_main_v0_apply, el, er]
  rfl

/-- With real inputs every logit is real. -/
theorem isReal_logits (h0 : ∀ i, IsReal (x0 i)) (h2 : ∀ i, IsReal (x2 i)) (h3 : ∀ i, IsReal (x3 i)) (i : S1024x100000.Idx) :
    IsReal (val_main_v4 (F := Ideal) x0 x2 x3 i) := by
  obtain ⟨r, q, rfl⟩ : ∃ (r : Fin 1024) (q : Fin 100000), i = ix2 r q := ⟨i 0, i 1, eq_ix2 i⟩
  rw [logits_apply]
  unfold Cert.LogSoftmaxSpec.logit
  exact (IsReal.sum_univ _ fun k => (h0 _).mul (h2 _)).add (h3 _)

/-! ## The row maximum -/

theorem ofBits_neg_inf : Ideal.ofBits .f32 0xFF800000#32 = ⊥ := by simp [Ideal.ofBits, Ideal.ieee]

/-- Rows of the [1024, 100000] logits reduce along the class axis. -/
theorem reduces_rows : S1024x100000.Reduces [1] S1024 := by decide

/-- The largest logit of a row, as the reference takes it, is real when the logits are. -/
theorem isReal_rowmax (hL : ∀ i, IsReal (val_main_v4 (F := Ideal) x0 x2 x3 i)) (j : S1024.Idx) : IsReal (val_main_call0_v2 (F := Ideal) x0 x2 x3 j) := by
  rw [val_main_call0_v2_apply, val_main_call0_v1_apply, val_main_call0_cst_0_apply]
  unfold val_main_call0_v0
  rw [Host.reduce_eq_fold_single FloatOps.maximumf _ _ _ reduces_rows _ j, val_main_call0_cst_apply, Ideal.ofBits_def,
    ofBits_neg_inf]
  haveI : Nonempty (Fin (S1024x100000.size 1)) := ⟨⟨0, by decide⟩⟩
  refine (?_ : IsReal (max ⊥ ((Finset.univ : Finset (Fin (S1024x100000.size 1))).fold max ⊥
    (fun k => val_main_v4 (F := Ideal) x0 x2 x3 (reduces_rows.lift j k)))))
  rw [max_eq_right bot_le]
  exact Cert.LogSoftmaxShift.isReal_fold_max _ fun k => hL _

/-! ## The result -/

/-- The shifted logits at (r, q): the logit minus the row's maximum. -/
theorem shifted_apply (r : Fin 1024) (q : Fin 100000) :
    val_main_call0_v5 (F := Ideal) x0 x2 x3 (ix2 r q) = val_main_v4 (F := Ideal) x0 x2 x3 (ix2 r q) - val_main_call0_v2 (F := Ideal) x0 x2 x3 (ix1 r) := by
  have e : idx_main_call0_v3 (idx_main_call0_v4 (ix2 r q)) = ix1 r :=
    funext fun a => Fin.ext (by match a with | ⟨0, _⟩ => rfl)
  rw [val_main_call0_v5_apply, val_main_call0_v4_apply, val_main_call0_v3_apply, e]
  rfl

/-- The reference's result at (r, q): the shifted logit minus the log of the row's sum of exponentials of shifted logits. -/
theorem result_apply (r : Fin 1024) (q : Fin 100000) :
    val_main_v5 (F := Ideal) x0 x2 x3 (ix2 r q)
      = (val_main_v4 (F := Ideal) x0 x2 x3 (ix2 r q) - val_main_call0_v2 (F := Ideal) x0 x2 x3 (ix1 r))
        - Ideal.log (∑ k : Fin 100000, Ideal.exp (val_main_v4 (F := Ideal) x0 x2 x3 (ix2 r k) - val_main_call0_v2 (F := Ideal) x0 x2 x3 (ix1 r))) := by
  have e10 : idx_main_call0_v8 (idx_main_call0_v10 (ix2 r q)) = ix1 r :=
    funext fun a => Fin.ext (by match a with | ⟨0, _⟩ => rfl)
  have e7 : ∀ k : Fin 100000, idx_main_call0_v7 (ix1 r) k = ix2 r k := fun k =>
    funext fun a => Fin.ext (by match a with | ⟨0, _⟩ => rfl | ⟨1, _⟩ => rfl)
  rw [val_main_v5_apply, shifted_apply, val_main_call0_v10_apply, val_main_call0_v9_apply, val_main_call0_v8_apply, e10,
    val_main_call0_v7_apply, val_main_call0_cst_1_apply]
  simp only [e7, val_main_call0_v6_apply, shifted_apply, Ideal.hostUnary_exp_def, Ideal.hostUnary_log_def, Ideal.subf_def,
    Ideal.ofBits_def, Ideal.ofBits_zero_f32, zero_add]

/-- THE REFERENCE IS THE SPECIFICATION: for real inputs, weights and bias, and any real constants c and one. -/
theorem result_eq (c one : EReal) (hc : IsReal c) (hone : IsReal one) (h0 : ∀ i, IsReal (x0 i)) (h2 : ∀ i, IsReal (x2 i))
    (h3 : ∀ i, IsReal (x3 i)) : val_main_v5 (F := Ideal) x0 x2 x3 = Cert.LogSoftmaxSpec.out c one x0 x2 x3 := by
  funext i
  obtain ⟨r, q, rfl⟩ : ∃ (r : Fin 1024) (q : Fin 100000), i = ix2 r q := ⟨i 0, i 1, eq_ix2 i⟩
  have hL := isReal_logits x0 x2 x3 h0 h2 h3
  have hM := isReal_rowmax x0 x2 x3 hL (ix1 r)
  have hA : IsReal (Cert.LogSoftmaxSpec.shift c one x0 r) := by
    unfold Cert.LogSoftmaxSpec.shift
    exact hc.mul ((IsReal.sum_univ _ fun k => (h0 _).max (h0 _).neg).add hone)
  haveI : Nonempty (Fin 100000) := ⟨⟨0, by decide⟩⟩
  rw [result_apply, Cert.LogSoftmaxSpec.out_apply]
  simp only [logits_apply] at hL hM ⊢
  exact Cert.LogSoftmaxShift.shift_invariant (fun k => Cert.LogSoftmaxSpec.logit x0 x2 x3 r k)
    (fun k => by have := hL (ix2 r k); rwa [logits_apply] at this) hM hA q

end Cert.ReferenceIdeal.RefValue

end
-- ==== Proof.FiniteInputs.lean ====
/-
  The precondition read back: every float input is finite, so every entry of the three float arguments is a real.

  The precondition is the conjunction of three tests "all |a| < +inf", one per float argument, each an and-reduction of an
  entry-wise comparison of |a| against the word of +inf. An and-reduction that is 1 had a 1 at every entry; the comparison
  at an entry being 1 says max a (-a) < +inf on the extended reals, which excludes a = +inf and a = -inf.
-/
import proofs.«106714_g41480794145007_cont_8to1_b_658_24_alg».proof.Pre_finite_inputs
import proofs.«106714_g41480794145007_cont_8to1_b_658_24_alg».proof.Proof.Gen.Pre_finite_inputs
import proofs.«106714_g41480794145007_cont_8to1_b_658_24_alg».proof.Proof.LibGcnBatchNorm
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.FiniteInputs

open Idealize.ShloMosaic Idealize.ShloMosaic.ValueIdx Cert.LibGcnBatchNorm Cert.Pre_finite_inputs

/-- The single-precision word of +inf denotes the top element. -/
theorem ofBits_inf : Ideal.ofBits .f32 0x7F800000#32 = ⊤ := by simp [Ideal.ofBits, Ideal.ieee]

/-- An extended real whose absolute value is below +inf is a real number. -/
theorem isReal_of_abs_lt_top (x : EReal) (h : max x (-x) < ⊤) : IsReal x := by
  induction x using EReal.rec with
  | bot => simp at h
  | top => simp at h
  | coe r => exact isReal_coe r

/-- The ordered "less than" comparison being 1 says the first is below the second. -/
theorem lt_of_cmp_olt {x y : EReal} (h : Ideal.cmp .olt x y = 1#1) : x < y := by
  unfold Ideal.cmp at h
  by_contra hn
  simp [hn] at h

instance : Subsingleton S_.Idx := ⟨fun a b => funext fun d => d.elim0⟩

/-- One test: if the and-reduction of "|a| < +inf" over every entry of a is 1, every entry of a is a real. -/
theorem isReal_of_all {s : Shape} (a : FVec Ideal s .f32) (hb : S_.BroadcastsInDim s (![] : Fin 0 → Fin s.rank))
    {axes : List (Fin s.rank)} (h : s.ReducesTo axes S_) (hu : 0 < S_.numel)
    (e : Host.reduce IntOp.andi (cmpf .olt (Host.absf a) (broadcastInDim s ![] hb (constant (F := Ideal) S_ .f32 0x7F800000#32)))
        (constantI S_ 1 1#1) h hu ix0 = 1#1) (i : s.Idx) : IsReal (a i) := by
  have e1 := Host.reduce_andi_all _ _ h hu ix0 e i
  rw [cmpf_apply, broadcastInDim_apply _ hb (constant (F := Ideal) S_ .f32 0x7F800000#32) i ix0 (fun d => d.elim0)] at e1
  exact isReal_of_abs_lt_top (a i) (by
    have := lt_of_cmp_olt (x := max (a i) (-(a i))) (y := Ideal.ofBits .f32 0x7F800000#32) e1
    rwa [ofBits_inf] at this)

/-- THE PRECONDITION READ BACK: finite_inputs of the four arguments being all ones makes every entry of the inputs, of the
    weights and of the bias a real number. -/
theorem isReal_of_pre (a0 : FVec Ideal S1024x64 .f32) (a1 : IVec S1024 32) (a2 : FVec Ideal S100000x64 .f32)
    (a3 : FVec Ideal S100000 .f32) (h : fn (F := Ideal) a0 a1 a2 a3 = fun _ => 1#1) :
    (∀ i, IsReal (a0 i)) ∧ (∀ i, IsReal (a2 i)) ∧ (∀ i, IsReal (a3 i)) := by
  have h0 := congrFun h ix0
  unfold fn at h0
  obtain ⟨h02, h3⟩ := IntOp.andi_eq_one.1 h0
  obtain ⟨h0', h2⟩ := IntOp.andi_eq_one.1 h02
  exact ⟨isReal_of_all a0 _ _ _ h0', isReal_of_all a2 _ _ _ h2,
    isReal_of_all a3 _ _ _ h3⟩

end Cert.FiniteInputs

end
-- ==== Proof.lean ====
/-
  A full-vocabulary projection followed by a log-softmax, computed block of rows by block of rows, against jnp's
  matmul + bias + log_softmax: the two idealized programs end with equal results on the extended reals.

  Both compute, for inputs x [1024, 64], weights w [100000, 64] and bias b [100000], the logits
      L (r, q) = sum_k x (r, k) * w (q, k) + b q
  and then a log-softmax of each row. The reference takes the row's largest logit M r out of the scores:
      (L (r, q) - M r) - log (sum_q' exp (L (r, q') - M r)).
  The kernel takes out an upper bound of it instead, s r = c * (sum_k |x (r, k)| + 1) with c a constant of the kernel:
      L (r, q) - (s r + log (sum_q' exp (L (r, q') - s r))).
  For real scores a log-softmax does not depend on which real number is taken out — exp (l - a) = exp l * exp (-a), so
  log (sum exp (l - a)) = log (sum exp l) - a — hence both are L (r, q) - log (sum_q' exp L (r, q')). The law needs the
  scores real (with an infinite logit the two forms differ), which is what the precondition gives: finite inputs make
  every logit, every row maximum and every shift a real number. The value of c plays no part beyond being real.

  The pieces: the kernel's result array as one function of the arguments (its blocks of 32 rows, each the body's value
  at the staged blocks; the 32 blocks tile the rows); the reference's run read operation by operation, its row maximum a
  fold of max over a nonempty row of reals; the shift-invariance law; the precondition read back entry by entry.
  The three frames are the generated frame runs (the reference's is its run with the result dropped), and the ideal
  pass's one rewrite — the constant c named 101/800 — is its rule's statement.
-/
import proofs.«106714_g41480794145007_cont_8to1_b_658_24_alg».proof.Defs
import proofs.«106714_g41480794145007_cont_8to1_b_658_24_alg».proof.Proof.Gen.Kernel
import proofs.«106714_g41480794145007_cont_8to1_b_658_24_alg».proof.Proof.Gen.Kernel.Frame
import proofs.«106714_g41480794145007_cont_8to1_b_658_24_alg».proof.Proof.Gen.KernelIdeal
import proofs.«106714_g41480794145007_cont_8to1_b_658_24_alg».proof.Proof.Gen.KernelIdeal.Frame
import proofs.«106714_g41480794145007_cont_8to1_b_658_24_alg».proof.Proof.Gen.KernelIdeal.Value
import proofs.«106714_g41480794145007_cont_8to1_b_658_24_alg».proof.Proof.Gen.ReferenceIdeal
import proofs.«106714_g41480794145007_cont_8to1_b_658_24_alg».proof.Proof.Gen.Pre_finite_inputs
import proofs.«106714_g41480794145007_cont_8to1_b_658_24_alg».proof.Proof.ReferenceRunPatched
import proofs.«106714_g41480794145007_cont_8to1_b_658_24_alg».proof.Proof.ReferenceReadPatched
import proofs.«106714_g41480794145007_cont_8to1_b_658_24_alg».proof.Proof.KernelArray
import proofs.«106714_g41480794145007_cont_8to1_b_658_24_alg».proof.Proof.ReferenceValue
import proofs.«106714_g41480794145007_cont_8to1_b_658_24_alg».proof.Proof.FiniteInputs
import proofs.«106714_g41480794145007_cont_8to1_b_658_24_alg».proof.Proof.LibGcnBatchNorm
import Idealize.ShloMosaic.Adequacy
import Idealize.ShloMosaic.Init

noncomputable section

namespace Cert.Proof

open Idealize.ShloMosaic Idealize.ShloMosaic.TcCoe Idealize.SL.Sem Cert.LibGcnBatchNorm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The ledger's one entry: the kernel's constant 0.12625 named 101/800. -/
theorem preserves : Cert.preserves_Kernel_KernelIdeal :=
  IdealRules.named_const.statement Cert.KernelIdeal.κ "c_101_800" .f32 0x3E0147AE#32 ((101 / 800 : ℝ) : EReal) rfl

/-- The kernel's constant is a real number at the ideal values (the value its name gives it). -/
theorem isReal_cst : IsReal Cert.KernelIdeal.Whole.cst :=
  ⟨101 / 800, IdealRules.named_const.ideal_named_scalar _ _ _ _ rfl⟩

/-- The word of 1.0 denotes a real number. -/
theorem isReal_one : IsReal Cert.KernelIdeal.Whole.one := isReal_ofBits_f32 _ (by decide)

/-- Both runs end at the specification of the kernel's arguments: the kernel's by its blocks, the reference's — run from
    arguments that agree — by the shift-invariance of log-softmax on the real scores finite inputs give. The labels pass
    through both programs untouched. -/
theorem algebraic : Cert.algebraic_KernelIdeal_ReferenceIdeal := by
  intro m ρ m' ρ' hpre hagree
  refine ⟨fun c => Cert.KernelIdeal.Whole.G m c, fun c => m ((c.tc : Thread Cert.KernelIdeal.nD Cert.KernelIdeal.τ).loc Cert.KernelIdeal.main_arg1), ?_, ?_⟩
  · exact (θ_run Cert.KernelIdeal.defs _ _).mono (fun r h c => ⟨(h c).1, (h c).2.2.1, (h c).2⟩)
      (Cert.KernelIdeal.Whole.run m ρ)
  · refine (θ_run Cert.ReferenceIdeal.defs _ _).mono
      (fun _ h c => ⟨(h c).1.trans ?_, (h c).2.1.trans (hagree c).2.1, (h c).2.2⟩)
      (Cert.ReferenceIdeal.ValueP.run (F := Ideal) m' ρ')
    obtain ⟨h0, h2, h3⟩ := Cert.FiniteInputs.isReal_of_pre _ _ _ _ (hpre c)
    rw [Cert.ReferenceIdeal.ReadP.val_main_v5_eq, (hagree c).1, (hagree c).2.2.1, (hagree c).2.2.2]
    exact Cert.ReferenceIdeal.RefValue.result_eq _ _ _ _ _ isReal_cst isReal_one h0 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
